-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x56x56x64 : Shape := ⟨4, ![4, 56, 56, 64]⟩
abbrev S64x128 : Shape := ⟨2, ![64, 128]⟩
abbrev S128 : Shape := ⟨1, ![128]⟩
abbrev S_ : Shape := ⟨0, ![]⟩

class Facts : Prop where
  bcast_S_S4x56x56x64 : S_.BroadcastsInDim S4x56x56x64 (![] : Fin 0 → Fin S4x56x56x64.rank)
  reducesTo_S4x56x56x64_S_d0_1_2_3 : S4x56x56x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x56x56x64 .f32) (main_arg1 : FVec F S64x128 .f32) (main_arg2 : FVec F S128 .f32) : IVec S_ 1 :=
  let main_v0 : FVec F S4x56x56x64 .f32 := Host.absf main_arg0
  let main_cst : FVec F S_ .f32 := constant S_ .f32 0x7F800000#32
  let main_v1 : FVec F S4x56x56x64 .f32 := broadcastInDim S4x56x56x64 ![] bcast_S_S4x56x56x64 main_cst
  let main_v2 : IVec S4x56x56x64 1 := cmpf .olt main_v0 main_v1
  let main_c : IVec S_ 1 := constantI S_ 1 1#1
  let main_v3 : IVec S_ 1 := (fun x v => Host.reduce IntOp.andi x v reducesTo_S4x56x56x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x56x56x64 : Shape := ⟨4, ![4, 56, 56, 64]⟩
abbrev S64x128 : Shape := ⟨2, ![64, 128]⟩
abbrev S128 : Shape := ⟨1, ![128]⟩
abbrev S12544x64 : Shape := ⟨2, ![12544, 64]⟩
abbrev S12544x128 : Shape := ⟨2, ![12544, 128]⟩
abbrev S1568x64 : Shape := ⟨2, ![1568, 64]⟩
abbrev S1568x128 : Shape := ⟨2, ![1568, 128]⟩
abbrev S1568x1 : Shape := ⟨2, ![1568, 1]⟩
abbrev S1x128 : Shape := ⟨2, ![1, 128]⟩
abbrev S4x3136x128 : Shape := ⟨3, ![4, 3136, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x56x56x64, .f32⟩
  | .hbm, ⟨1, _⟩ => ⟨S64x128, .f32⟩
  | .hbm, ⟨2, _⟩ => ⟨S128, .f32⟩
  | .hbm, ⟨3, _⟩ => ⟨S12544x64, .f32⟩
  | .hbm, ⟨4, _⟩ => ⟨S12544x128, .f32⟩
  | .hbm, ⟨5, _⟩ => ⟨S4x3136x128, .f32⟩
  | .local _ .vmem, ⟨0, _⟩ => ⟨S1568x64, .f32⟩
  | .local _ .vmem, ⟨1, _⟩ => ⟨S1568x64, .f32⟩
  | .local _ .vmem, ⟨2, _⟩ => ⟨S64x128, .f32⟩
  | .local _ .vmem, ⟨3, _⟩ => ⟨S128, .f32⟩
  | .local _ .vmem, ⟨4, _⟩ => ⟨S1568x128, .f32⟩
  | .local _ .vmem, ⟨5, _⟩ => ⟨S1568x128, .f32⟩
  | _, _ => ⟨S4x56x56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1568x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x56x56x64_S12544x64 : S4x56x56x64.ShapeCasts S12544x64
  inb_S1568x64_S1568x1_0_0 : ∀ a, (![0, 0] : Fin 2 → Nat) a + S1568x1.size a ≤ S1568x64.size a
  h_S1568x1 : 0 < S1568x1.numel
  shapeCasts_S1568x1_S1568x1 : S1568x1.ShapeCasts S1568x1
  inb_S64x128_S1x128_0_0 : ∀ a, (![0, 0] : Fin 2 → Nat) a + S1x128.size a ≤ S64x128.size a
  h_S1x128 : 0 < S1x128.numel
  broadcasts_S1568x1_S1568x128 : S1568x1.Broadcasts S1568x128
  broadcasts_S1x128_S1568x128 : S1x128.Broadcasts S1568x128
  inb_S1568x64_S1568x1_0_1 : ∀ a, (![0, 1] : Fin 2 → Nat) a + S1568x1.size a ≤ S1568x64.size a
  inb_S64x128_S1x128_1_0 : ∀ a, (![1, 0] : Fin 2 → Nat) a + S1x128.size a ≤ S64x128.size a
  inb_S1568x64_S1568x1_0_2 : ∀ a, (![0, 2] : Fin 2 → Nat) a + S1568x1.size a ≤ S1568x64.size a
  inb_S64x128_S1x128_2_0 : ∀ a, (![2, 0] : Fin 2 → Nat) a + S1x128.size a ≤ S64x128.size a
  inb_S1568x64_S1568x1_0_3 : ∀ a, (![0, 3] : Fin 2 → Nat) a + S1568x1.size a ≤ S1568x64.size a
  inb_S64x128_S1x128_3_0 : ∀ a, (![3, 0] : Fin 2 → Nat) a + S1x128.size a ≤ S64x128.size a
  inb_S1568x64_S1568x1_0_4 : ∀ a, (![0, 4] : Fin 2 → Nat) a + S1568x1.size a ≤ S1568x64.size a
  inb_S64x128_S1x128_4_0 : ∀ a, (![4, 0] : Fin 2 → Nat) a + S1x128.size a ≤ S64x128.size a
  inb_S1568x64_S1568x1_0_5 : ∀ a, (![0, 5] : Fin 2 → Nat) a + S1568x1.size a ≤ S1568x64.size a
  inb_S64x128_S1x128_5_0 : ∀ a, (![5, 0] : Fin 2 → Nat) a + S1x128.size a ≤ S64x128.size a
  inb_S1568x64_S1568x1_0_6 : ∀ a, (![0, 6] : Fin 2 → Nat) a + S1568x1.size a ≤ S1568x64.size a
  inb_S64x128_S1x128_6_0 : ∀ a, (![6, 0] : Fin 2 → Nat) a + S1x128.size a ≤ S64x128.size a
  inb_S1568x64_S1568x1_0_7 : ∀ a, (![0, 7] : Fin 2 → Nat) a + S1568x1.size a ≤ S1568x64.size a
  inb_S64x128_S1x128_7_0 : ∀ a, (![7, 0] : Fin 2 → Nat) a + S1x128.size a ≤ S64x128.size a
  inb_S1568x64_S1568x1_0_8 : ∀ a, (![0, 8] : Fin 2 → Nat) a + S1568x1.size a ≤ S1568x64.size a
  inb_S64x128_S1x128_8_0 : ∀ a, (![8, 0] : Fin 2 → Nat) a + S1x128.size a ≤ S64x128.size a
  inb_S1568x64_S1568x1_0_9 : ∀ a, (![0, 9] : Fin 2 → Nat) a + S1568x1.size a ≤ S1568x64.size a
  inb_S64x128_S1x128_9_0 : ∀ a, (![9, 0] : Fin 2 → Nat) a + S1x128.size a ≤ S64x128.size a
  inb_S1568x64_S1568x1_0_10 : ∀ a, (![0, 10] : Fin 2 → Nat) a + S1568x1.size a ≤ S1568x64.size a
  inb_S64x128_S1x128_10_0 : ∀ a, (![10, 0] : Fin 2 → Nat) a + S1x128.size a ≤ S64x128.size a
  inb_S1568x64_S1568x1_0_11 : ∀ a, (![0, 11] : Fin 2 → Nat) a + S1568x1.size a ≤ S1568x64.size a
  inb_S64x128_S1x128_11_0 : ∀ a, (![11, 0] : Fin 2 → Nat) a + S1x128.size a ≤ S64x128.size a
  inb_S1568x64_S1568x1_0_12 : ∀ a, (![0, 12] : Fin 2 → Nat) a + S1568x1.size a ≤ S1568x64.size a
  inb_S64x128_S1x128_12_0 : ∀ a, (![12, 0] : Fin 2 → Nat) a + S1x128.size a ≤ S64x128.size a
  inb_S1568x64_S1568x1_0_13 : ∀ a, (![0, 13] : Fin 2 → Nat) a + S1568x1.size a ≤ S1568x64.size a
  inb_S64x128_S1x128_13_0 : ∀ a, (![13, 0] : Fin 2 → Nat) a + S1x128.size a ≤ S64x128.size a
  inb_S1568x64_S1568x1_0_14 : ∀ a, (![0, 14] : Fin 2 → Nat) a + S1568x1.size a ≤ S1568x64.size a
  inb_S64x128_S1x128_14_0 : ∀ a, (![14, 0] : Fin 2 → Nat) a + S1x128.size a ≤ S64x128.size a
  inb_S1568x64_S1568x1_0_15 : ∀ a, (![0, 15] : Fin 2 → Nat) a + S1568x1.size a ≤ S1568x64.size a
  inb_S64x128_S1x128_15_0 : ∀ a, (![15, 0] : Fin 2 → Nat) a + S1x128.size a ≤ S64x128.size a
  inb_S1568x64_S1568x1_0_16 : ∀ a, (![0, 16] : Fin 2 → Nat) a + S1568x1.size a ≤ S1568x64.size a
  inb_S64x128_S1x128_16_0 : ∀ a, (![16, 0] : Fin 2 → Nat) a + S1x128.size a ≤ S64x128.size a
  inb_S1568x64_S1568x1_0_17 : ∀ a, (![0, 17] : Fin 2 → Nat) a + S1568x1.size a ≤ S1568x64.size a
  inb_S64x128_S1x128_17_0 : ∀ a, (![17, 0] : Fin 2 → Nat) a + S1x128.size a ≤ S64x128.size a
  inb_S1568x64_S1568x1_0_18 : ∀ a, (![0, 18] : Fin 2 → Nat) a + S1568x1.size a ≤ S1568x64.size a
  inb_S64x128_S1x128_18_0 : ∀ a, (![18, 0] : Fin 2 → Nat) a + S1x128.size a ≤ S64x128.size a
  inb_S1568x64_S1568x1_0_19 : ∀ a, (![0, 19] : Fin 2 → Nat) a + S1568x1.size a ≤ S1568x64.size a
  inb_S64x128_S1x128_19_0 : ∀ a, (![19, 0] : Fin 2 → Nat) a + S1x128.size a ≤ S64x128.size a
  inb_S1568x64_S1568x1_0_20 : ∀ a, (![0, 20] : Fin 2 → Nat) a + S1568x1.size a ≤ S1568x64.size a
  inb_S64x128_S1x128_20_0 : ∀ a, (![20, 0] : Fin 2 → Nat) a + S1x128.size a ≤ S64x128.size a
  inb_S1568x64_S1568x1_0_21 : ∀ a, (![0, 21] : Fin 2 → Nat) a + S1568x1.size a ≤ S1568x64.size a
  inb_S64x128_S1x128_21_0 : ∀ a, (![21, 0] : Fin 2 → Nat) a + S1x128.size a ≤ S64x128.size a
  inb_S1568x64_S1568x1_0_22 : ∀ a, (![0, 22] : Fin 2 → Nat) a + S1568x1.size a ≤ S1568x64.size a
  inb_S64x128_S1x128_22_0 : ∀ a, (![22, 0] : Fin 2 → Nat) a + S1x128.size a ≤ S64x128.size a
  inb_S1568x64_S1568x1_0_23 : ∀ a, (![0, 23] : Fin 2 → Nat) a + S1568x1.size a ≤ S1568x64.size a
  inb_S64x128_S1x128_23_0 : ∀ a, (![23, 0] : Fin 2 → Nat) a + S1x128.size a ≤ S64x128.size a
  inb_S1568x64_S1568x1_0_24 : ∀ a, (![0, 24] : Fin 2 → Nat) a + S1568x1.size a ≤ S1568x64.size a
  inb_S64x128_S1x128_24_0 : ∀ a, (![24, 0] : Fin 2 → Nat) a + S1x128.size a ≤ S64x128.size a
  inb_S1568x64_S1568x1_0_25 : ∀ a, (![0, 25] : Fin 2 → Nat) a + S1568x1.size a ≤ S1568x64.size a
  inb_S64x128_S1x128_25_0 : ∀ a, (![25, 0] : Fin 2 → Nat) a + S1x128.size a ≤ S64x128.size a
  inb_S1568x64_S1568x1_0_26 : ∀ a, (![0, 26] : Fin 2 → Nat) a + S1568x1.size a ≤ S1568x64.size a
  inb_S64x128_S1x128_26_0 : ∀ a, (![26, 0] : Fin 2 → Nat) a + S1x128.size a ≤ S64x128.size a
  inb_S1568x64_S1568x1_0_27 : ∀ a, (![0, 27] : Fin 2 → Nat) a + S1568x1.size a ≤ S1568x64.size a
  inb_S64x128_S1x128_27_0 : ∀ a, (![27, 0] : Fin 2 → Nat) a + S1x128.size a ≤ S64x128.size a
  inb_S1568x64_S1568x1_0_28 : ∀ a, (![0, 28] : Fin 2 → Nat) a + S1568x1.size a ≤ S1568x64.size a
  inb_S64x128_S1x128_28_0 : ∀ a, (![28, 0] : Fin 2 → Nat) a + S1x128.size a ≤ S64x128.size a
  inb_S1568x64_S1568x1_0_29 : ∀ a, (![0, 29] : Fin 2 → Nat) a + S1568x1.size a ≤ S1568x64.size a
  inb_S64x128_S1x128_29_0 : ∀ a, (![29, 0] : Fin 2 → Nat) a + S1x128.size a ≤ S64x128.size a
  inb_S1568x64_S1568x1_0_30 : ∀ a, (![0, 30] : Fin 2 → Nat) a + S1568x1.size a ≤ S1568x64.size a
  inb_S64x128_S1x128_30_0 : ∀ a, (![30, 0] : Fin 2 → Nat) a + S1x128.size a ≤ S64x128.size a
  inb_S1568x64_S1568x1_0_31 : ∀ a, (![0, 31] : Fin 2 → Nat) a + S1568x1.size a ≤ S1568x64.size a
  inb_S64x128_S1x128_31_0 : ∀ a, (![31, 0] : Fin 2 → Nat) a + S1x128.size a ≤ S64x128.size a
  inb_S1568x64_S1568x1_0_32 : ∀ a, (![0, 32] : Fin 2 → Nat) a + S1568x1.size a ≤ S1568x64.size a
  inb_S64x128_S1x128_32_0 : ∀ a, (![32, 0] : Fin 2 → Nat) a + S1x128.size a ≤ S64x128.size a
  inb_S1568x64_S1568x1_0_33 : ∀ a, (![0, 33] : Fin 2 → Nat) a + S1568x1.size a ≤ S1568x64.size a
  inb_S64x128_S1x128_33_0 : ∀ a, (![33, 0] : Fin 2 → Nat) a + S1x128.size a ≤ S64x128.size a
  inb_S1568x64_S1568x1_0_34 : ∀ a, (![0, 34] : Fin 2 → Nat) a + S1568x1.size a ≤ S1568x64.size a
  inb_S64x128_S1x128_34_0 : ∀ a, (![34, 0] : Fin 2 → Nat) a + S1x128.size a ≤ S64x128.size a
  inb_S1568x64_S1568x1_0_35 : ∀ a, (![0, 35] : Fin 2 → Nat) a + S1568x1.size a ≤ S1568x64.size a
  inb_S64x128_S1x128_35_0 : ∀ a, (![35, 0] : Fin 2 → Nat) a + S1x128.size a ≤ S64x128.size a
  inb_S1568x64_S1568x1_0_36 : ∀ a, (![0, 36] : Fin 2 → Nat) a + S1568x1.size a ≤ S1568x64.size a
  inb_S64x128_S1x128_36_0 : ∀ a, (![36, 0] : Fin 2 → Nat) a + S1x128.size a ≤ S64x128.size a
  inb_S1568x64_S1568x1_0_37 : ∀ a, (![0, 37] : Fin 2 → Nat) a + S1568x1.size a ≤ S1568x64.size a
  inb_S64x128_S1x128_37_0 : ∀ a, (![37, 0] : Fin 2 → Nat) a + S1x128.size a ≤ S64x128.size a
  inb_S1568x64_S1568x1_0_38 : ∀ a, (![0, 38] : Fin 2 → Nat) a + S1568x1.size a ≤ S1568x64.size a
  inb_S64x128_S1x128_38_0 : ∀ a, (![38, 0] : Fin 2 → Nat) a + S1x128.size a ≤ S64x128.size a
  inb_S1568x64_S1568x1_0_39 : ∀ a, (![0, 39] : Fin 2 → Nat) a + S1568x1.size a ≤ S1568x64.size a
  inb_S64x128_S1x128_39_0 : ∀ a, (![39, 0] : Fin 2 → Nat) a + S1x128.size a ≤ S64x128.size a
  inb_S1568x64_S1568x1_0_40 : ∀ a, (![0, 40] : Fin 2 → Nat) a + S1568x1.size a ≤ S1568x64.size a
  inb_S64x128_S1x128_40_0 : ∀ a, (![40, 0] : Fin 2 → Nat) a + S1x128.size a ≤ S64x128.size a
  inb_S1568x64_S1568x1_0_41 : ∀ a, (![0, 41] : Fin 2 → Nat) a + S1568x1.size a ≤ S1568x64.size a
  inb_S64x128_S1x128_41_0 : ∀ a, (![41, 0] : Fin 2 → Nat) a + S1x128.size a ≤ S64x128.size a
  inb_S1568x64_S1568x1_0_42 : ∀ a, (![0, 42] : Fin 2 → Nat) a + S1568x1.size a ≤ S1568x64.size a
  inb_S64x128_S1x128_42_0 : ∀ a, (![42, 0] : Fin 2 → Nat) a + S1x128.size a ≤ S64x128.size a
  inb_S1568x64_S1568x1_0_43 : ∀ a, (![0, 43] : Fin 2 → Nat) a + S1568x1.size a ≤ S1568x64.size a
  inb_S64x128_S1x128_43_0 : ∀ a, (![43, 0] : Fin 2 → Nat) a + S1x128.size a ≤ S64x128.size a
  inb_S1568x64_S1568x1_0_44 : ∀ a, (![0, 44] : Fin 2 → Nat) a + S1568x1.size a ≤ S1568x64.size a
  inb_S64x128_S1x128_44_0 : ∀ a, (![44, 0] : Fin 2 → Nat) a + S1x128.size a ≤ S64x128.size a
  inb_S1568x64_S1568x1_0_45 : ∀ a, (![0, 45] : Fin 2 → Nat) a + S1568x1.size a ≤ S1568x64.size a
  inb_S64x128_S1x128_45_0 : ∀ a, (![45, 0] : Fin 2 → Nat) a + S1x128.size a ≤ S64x128.size a
  inb_S1568x64_S1568x1_0_46 : ∀ a, (![0, 46] : Fin 2 → Nat) a + S1568x1.size a ≤ S1568x64.size a
  inb_S64x128_S1x128_46_0 : ∀ a, (![46, 0] : Fin 2 → Nat) a + S1x128.size a ≤ S64x128.size a
  inb_S1568x64_S1568x1_0_47 : ∀ a, (![0, 47] : Fin 2 → Nat) a + S1568x1.size a ≤ S1568x64.size a
  inb_S64x128_S1x128_47_0 : ∀ a, (![47, 0] : Fin 2 → Nat) a + S1x128.size a ≤ S64x128.size a
  inb_S1568x64_S1568x1_0_48 : ∀ a, (![0, 48] : Fin 2 → Nat) a + S1568x1.size a ≤ S1568x64.size a
  inb_S64x128_S1x128_48_0 : ∀ a, (![48, 0] : Fin 2 → Nat) a + S1x128.size a ≤ S64x128.size a
  inb_S1568x64_S1568x1_0_49 : ∀ a, (![0, 49] : Fin 2 → Nat) a + S1568x1.size a ≤ S1568x64.size a
  inb_S64x128_S1x128_49_0 : ∀ a, (![49, 0] : Fin 2 → Nat) a + S1x128.size a ≤ S64x128.size a
  inb_S1568x64_S1568x1_0_50 : ∀ a, (![0, 50] : Fin 2 → Nat) a + S1568x1.size a ≤ S1568x64.size a
  inb_S64x128_S1x128_50_0 : ∀ a, (![50, 0] : Fin 2 → Nat) a + S1x128.size a ≤ S64x128.size a
  inb_S1568x64_S1568x1_0_51 : ∀ a, (![0, 51] : Fin 2 → Nat) a + S1568x1.size a ≤ S1568x64.size a
  inb_S64x128_S1x128_51_0 : ∀ a, (![51, 0] : Fin 2 → Nat) a + S1x128.size a ≤ S64x128.size a
  inb_S1568x64_S1568x1_0_52 : ∀ a, (![0, 52] : Fin 2 → Nat) a + S1568x1.size a ≤ S1568x64.size a
  inb_S64x128_S1x128_52_0 : ∀ a, (![52, 0] : Fin 2 → Nat) a + S1x128.size a ≤ S64x128.size a
  inb_S1568x64_S1568x1_0_53 : ∀ a, (![0, 53] : Fin 2 → Nat) a + S1568x1.size a ≤ S1568x64.size a
  inb_S64x128_S1x128_53_0 : ∀ a, (![53, 0] : Fin 2 → Nat) a + S1x128.size a ≤ S64x128.size a
  inb_S1568x64_S1568x1_0_54 : ∀ a, (![0, 54] : Fin 2 → Nat) a + S1568x1.size a ≤ S1568x64.size a
  inb_S64x128_S1x128_54_0 : ∀ a, (![54, 0] : Fin 2 → Nat) a + S1x128.size a ≤ S64x128.size a
  inb_S1568x64_S1568x1_0_55 : ∀ a, (![0, 55] : Fin 2 → Nat) a + S1568x1.size a ≤ S1568x64.size a
  inb_S64x128_S1x128_55_0 : ∀ a, (![55, 0] : Fin 2 → Nat) a + S1x128.size a ≤ S64x128.size a
  inb_S1568x64_S1568x1_0_56 : ∀ a, (![0, 56] : Fin 2 → Nat) a + S1568x1.size a ≤ S1568x64.size a
  inb_S64x128_S1x128_56_0 : ∀ a, (![56, 0] : Fin 2 → Nat) a + S1x128.size a ≤ S64x128.size a
  inb_S1568x64_S1568x1_0_57 : ∀ a, (![0, 57] : Fin 2 → Nat) a + S1568x1.size a ≤ S1568x64.size a
  inb_S64x128_S1x128_57_0 : ∀ a, (![57, 0] : Fin 2 → Nat) a + S1x128.size a ≤ S64x128.size a
  inb_S1568x64_S1568x1_0_58 : ∀ a, (![0, 58] : Fin 2 → Nat) a + S1568x1.size a ≤ S1568x64.size a
  inb_S64x128_S1x128_58_0 : ∀ a, (![58, 0] : Fin 2 → Nat) a + S1x128.size a ≤ S64x128.size a
  inb_S1568x64_S1568x1_0_59 : ∀ a, (![0, 59] : Fin 2 → Nat) a + S1568x1.size a ≤ S1568x64.size a
  inb_S64x128_S1x128_59_0 : ∀ a, (![59, 0] : Fin 2 → Nat) a + S1x128.size a ≤ S64x128.size a
  inb_S1568x64_S1568x1_0_60 : ∀ a, (![0, 60] : Fin 2 → Nat) a + S1568x1.size a ≤ S1568x64.size a
  inb_S64x128_S1x128_60_0 : ∀ a, (![60, 0] : Fin 2 → Nat) a + S1x128.size a ≤ S64x128.size a
  inb_S1568x64_S1568x1_0_61 : ∀ a, (![0, 61] : Fin 2 → Nat) a + S1568x1.size a ≤ S1568x64.size a
  inb_S64x128_S1x128_61_0 : ∀ a, (![61, 0] : Fin 2 → Nat) a + S1x128.size a ≤ S64x128.size a
  inb_S1568x64_S1568x1_0_62 : ∀ a, (![0, 62] : Fin 2 → Nat) a + S1568x1.size a ≤ S1568x64.size a
  inb_S64x128_S1x128_62_0 : ∀ a, (![62, 0] : Fin 2 → Nat) a + S1x128.size a ≤ S64x128.size a
  inb_S1568x64_S1568x1_0_63 : ∀ a, (![0, 63] : Fin 2 → Nat) a + S1568x1.size a ≤ S1568x64.size a
  inb_S64x128_S1x128_63_0 : ∀ a, (![63, 0] : Fin 2 → Nat) a + S1x128.size a ≤ S64x128.size a
  inb_S128_S128_0 : ∀ a, (![0] : Fin 1 → Nat) a + S128.size a ≤ S128.size a
  h_S128 : 0 < S128.numel
  shapeCasts_S128_S1x128 : S128.ShapeCasts S1x128
  inb_S1568x128_S1568x128_0_0 : ∀ a, (![0, 0] : Fin 2 → Nat) a + S1568x128.size a ≤ S1568x128.size a
  h_S1568x128 : 0 < S1568x128.numel
  shapeCasts_S12544x128_S4x3136x128 : S12544x128.ShapeCasts S4x3136x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x64.size a ≤ S12544x64.size a
  hwx0_0 : ∀ i : grid0.Coords, EltTy.bits .f32 = 32 ∨ (Rect.block (s := S12544x64) S1568x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1568x128.size a ≤ S12544x128.size a
  hwx0_3 : ∀ i : grid0.Coords, EltTy.bits .f32 = 32 ∨ (Rect.block (s := S12544x128) S1568x128.size (cc0_transform_3 i) (hinb0_3 i)).WholeWords (EltTy.packing .f32)

variable [Facts₀]

abbrev win0_0 : Pipeline.Window sig grid0 :=
  Pipeline.Window.ofSpec (Memref.whole main_v0) S1568x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1568x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x56x56x64 : Shape := ⟨4, ![4, 56, 56, 64]⟩
abbrev S64x128 : Shape := ⟨2, ![64, 128]⟩
abbrev S128 : Shape := ⟨1, ![128]⟩
abbrev S4x3136x64 : Shape := ⟨3, ![4, 3136, 64]⟩
abbrev S4x3136x64x1 : Shape := ⟨4, ![4, 3136, 64, 1]⟩
abbrev S1x1x64x128 : Shape := ⟨4, ![1, 1, 64, 128]⟩
abbrev S4x3136x64x128 : Shape := ⟨4, ![4, 3136, 64, 128]⟩
abbrev S_ : Shape := ⟨0, ![]⟩
abbrev S4x3136x128 : Shape := ⟨3, ![4, 3136, 128]⟩
abbrev S1x1x128 : Shape := ⟨3, ![1, 1, 128]⟩

abbrev nBuf : Space → Nat
  | .hbm => 15
  | .vmem => 0
  | .smem => 0
  | _ => 0

abbrev bufTy : (tb : Table) → Fin (tcTables nBuf tb) → BufTy
  | .hbm, ⟨0, _⟩ => ⟨S4x56x56x64, .f32⟩
  | .hbm, ⟨1, _⟩ => ⟨S64x128, .f32⟩
  | .hbm, ⟨2, _⟩ => ⟨S128, .f32⟩
  | .hbm, ⟨3, _⟩ => ⟨S4x3136x64, .f32⟩
  | .hbm, ⟨4, _⟩ => ⟨S4x3136x64x1, .f32⟩
  | .hbm, ⟨5, _⟩ => ⟨S1x1x64x128, .f32⟩
  | .hbm, ⟨6, _⟩ => ⟨S4x3136x64x128, .f32⟩
  | .hbm, ⟨7, _⟩ => ⟨S4x3136x64x128, .f32⟩
  | .hbm, ⟨8, _⟩ => ⟨S4x3136x64x128, .f32⟩
  | .hbm, ⟨9, _⟩ => ⟨S4x3136x64x128, .f32⟩
  | .hbm, ⟨10, _⟩ => ⟨S_, .f32⟩
  | .hbm, ⟨11, _⟩ => ⟨S4x3136x128, .f32⟩
  | .hbm, ⟨12, _⟩ => ⟨S1x1x128, .f32⟩
  | .hbm, ⟨13, _⟩ => ⟨S4x3136x128, .f32⟩
  | .hbm, ⟨14, _⟩ => ⟨S4x3136x128, .f32⟩
  | _, _ => ⟨S4x56x56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S4x56x56x64_S4x3136x64 : S4x56x56x64.ShapeCasts S4x3136x64
  bcast_S4x3136x64_S4x3136x64x1_0_1_2 : S4x3136x64.BroadcastsInDim S4x3136x64x1 (![0, 1, 2] : Fin 3 → Fin S4x3136x64x1.rank)
  bcast_S64x128_S1x1x64x128_2_3 : S64x128.BroadcastsInDim S1x1x64x128 (![2, 3] : Fin 2 → Fin S1x1x64x128.rank)
  bcast_S4x3136x64x1_S4x3136x64x128_0_1_2_3 : S4x3136x64x1.BroadcastsInDim S4x3136x64x128 (![0, 1, 2, 3] : Fin 4 → Fin S4x3136x64x128.rank)
  bcast_S1x1x64x128_S4x3136x64x128_0_1_2_3 : S1x1x64x128.BroadcastsInDim S4x3136x64x128 (![0, 1, 2, 3] : Fin 4 → Fin S4x3136x64x128.rank)
  reducesTo_S4x3136x64x128_S4x3136x128_d2 : S4x3136x64x128.ReducesTo [2] S4x3136x128
  h_S_ : 0 < S_.numel
  bcast_S128_S1x1x128_2 : S128.BroadcastsInDim S1x1x128 (![2] : Fin 1 → Fin S1x1x128.rank)
  bcast_S1x1x128_S4x3136x128_0_1_2 : S1x1x128.BroadcastsInDim S4x3136x128 (![0, 1, 2] : Fin 3 → Fin S4x3136x128.rank)

variable [Facts₀]

class Facts : Prop extends Facts₀ where

variable [Facts]
-- ==== Proof.Spec.lean ====
/-
  What both programs compute, as one function of the three arguments.

  The image x [4, 56, 56, 64] is read as 12544 rows of 64 channels (row n is the pixel (n / 3136, n / 56 % 56, n % 56)).
  Entry (n, q) of the result is the L1 distance of row n from column q of w [64, 128], plus the bias b q:
      (0 + ∑ k, |x n k - w k q|) + b q
  on the extended reals, where |a - b| is max (a - b) (-(a - b)) and the sum starts from the zero both programs start
  from. The result array [4, 3136, 128] holds row i · 3136 + j at (i, j, ·).
-/
import Idealize.ShloMosaic.PureOps.Ideal
import Idealize.ShloMosaic.Lib.ValueIdx

noncomputable section

namespace Cert.Spec

open Idealize.ShloMosaic Idealize.ShloMosaic.ValueIdx

/-- |a - b| on the extended reals: the larger of the difference and its negation. -/
def absDiff (a b : EReal) : EReal := max (a - b) (-(a - b))

/-- Sixty-four terms added to zero one after the other, in order, are their sum. -/
theorem chain_eq_sum {M : Type} [AddCommMonoid M] (d : Fin 64 → M) :
    0 + d ⟨0, by decide⟩ + d ⟨1, by decide⟩ + d ⟨2, by decide⟩ + d ⟨3, by decide⟩ + d ⟨4, by decide⟩ + d ⟨5, by decide⟩ + d ⟨6, by decide⟩ + d ⟨7, by decide⟩ + d ⟨8, by decide⟩ + d ⟨9, by decide⟩ + d ⟨10, by decide⟩ + d ⟨11, by decide⟩ + d ⟨12, by decide⟩ + d ⟨13, by decide⟩ + d ⟨14, by decide⟩ + d ⟨15, by decide⟩ + d ⟨16, by decide⟩ + d ⟨17, by decide⟩ + d ⟨18, by decide⟩ + d ⟨19, by decide⟩ + d ⟨20, by decide⟩ + d ⟨21, by decide⟩ + d ⟨22, by decide⟩ + d ⟨23, by decide⟩ + d ⟨24, by decide⟩ + d ⟨25, by decide⟩ + d ⟨26, by decide⟩ + d ⟨27, by decide⟩ + d ⟨28, by decide⟩ + d ⟨29, by decide⟩ + d ⟨30, by decide⟩ + d ⟨31, by decide⟩ + d ⟨32, by decide⟩ + d ⟨33, by decide⟩ + d ⟨34, by decide⟩ + d ⟨35, by decide⟩ + d ⟨36, by decide⟩ + d ⟨37, by decide⟩ + d ⟨38, by decide⟩ + d ⟨39, by decide⟩ + d ⟨40, by decide⟩ + d ⟨41, by decide⟩ + d ⟨42, by decide⟩ + d ⟨43, by decide⟩ + d ⟨44, by decide⟩ + d ⟨45, by decide⟩ + d ⟨46, by decide⟩ + d ⟨47, by decide⟩ + d ⟨48, by decide⟩ + d ⟨49, by decide⟩ + d ⟨50, by decide⟩ + d ⟨51, by decide⟩ + d ⟨52, by decide⟩ + d ⟨53, by decide⟩ + d ⟨54, by decide⟩ + d ⟨55, by decide⟩ + d ⟨56, by decide⟩ + d ⟨57, by decide⟩ + d ⟨58, by decide⟩ + d ⟨59, by decide⟩ + d ⟨60, by decide⟩ + d ⟨61, by decide⟩ + d ⟨62, by decide⟩ + d ⟨63, by decide⟩ = ∑ k, d k := by
  rw [Finset.sum_fin_eq_sum_range]
  simp only [Finset.sum_range_succ, Finset.sum_range_zero]
  rfl

/-- Channel k of row n of the image: the pixel (n / 3136, n / 56 % 56, n % 56). -/
def pixel (n : Fin 12544) (k : Fin 64) : (⟨4, ![4, 56, 56, 64]⟩ : Shape).Idx :=
  ix4 (⟨n.val / 3136, by have := n.isLt; omega⟩ : Fin 4) (⟨n.val / 56 % 56, by omega⟩ : Fin 56) (⟨n.val % 56, by omega⟩ : Fin 56) k

/-- The L1 distance of row n of x from column q of w, plus the bias at q. -/
def rowDist (x : (⟨4, ![4, 56, 56, 64]⟩ : Shape).Idx → EReal) (w : (⟨2, ![64, 128]⟩ : Shape).Idx → EReal)
    (b : (⟨1, ![128]⟩ : Shape).Idx → EReal) (n : Fin 12544) (q : Fin 128) : EReal :=
  (0 + ∑ k : Fin 64, absDiff (x (pixel n k)) (w (ix2 k q))) + b (ix1 q)

/-- Row i · 3136 + j of the flattened image, for (i, j) in [4, 3136]. -/
def row (i : Fin 4) (j : Fin 3136) : Fin 12544 := ⟨i.val * 3136 + j.val, by have := i.isLt; have := j.isLt; omega⟩

/-- The result array [4, 3136, 128]: entry (i, j, q) is the distance of row i · 3136 + j from column q, plus b q. -/
def result (x : (⟨4, ![4, 56, 56, 64]⟩ : Shape).Idx → EReal) (w : (⟨2, ![64, 128]⟩ : Shape).Idx → EReal)
    (b : (⟨1, ![128]⟩ : Shape).Idx → EReal) : (⟨3, ![4, 3136, 128]⟩ : Shape).Idx → EReal :=
  fun i => rowDist x w b (row (i 0) (i 1)) (i 2)

end Cert.Spec

end
-- ==== Proof.Payload.lean ====
/-
  The kernel body's arithmetic, read at one entry (p, q) of its [1568, 128] block.

  The body adds |x p k - w k q| to an accumulator for k = 0 … 63, one step at a time: column k of the x block, a
  [1568, 1] vector, is spread along the lanes; row k of w, a [1, 128] vector, down the rows; they are subtracted,
  the absolute value taken, and the result added to the accumulator. So at (p, q) a step adds |xk p - wk q|. The body's
  text is cut in thirteen parts; each part's accumulator is a payload: the first part does steps 0 … 3 from zero, the
  middle ones five steps each (the first on operands the previous part already spread), the last one five steps and
  the bias row.
-/
import proofs.«155290_j31138512896692_2_alg».proof.Proof.Gen.KernelIdeal.Skeleton
import proofs.«155290_j31138512896692_2_alg».proof.Proof.Spec
import Idealize.ShloMosaic.Lib.Pipeline.Value
import Idealize.ShloMosaic.PureOps.Ideal.Laws
import Idealize.ShloMosaic.Lib.ValueIdx
import Idealize.ShloMosaic.Lib.ValueLayout

noncomputable section

namespace Cert.KernelIdeal.Dist

open Idealize.ShloMosaic Idealize.ShloMosaic.ValueIdx Cert.KernelIdeal Cert.KernelIdeal.Gen Cert.Spec

/-- A column [a, 1] spread along b lanes reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One step on operands already spread over the block: the accumulator plus |a - b|, entry by entry. -/
theorem step_spread (acc a b : FVec Ideal S1568x128 .f32) (p : Fin 1568) (q : Fin 128) :
    addf acc (absf (subf a b)) (ix2 p q) = acc (ix2 p q) + absDiff (a (ix2 p q)) (b (ix2 p q)) := rfl

/-- A column of the x block spread along the lanes, at (p, q), is the column at p. -/
theorem col_spread {α : Type} (xk : S1568x1.Idx → α) (hc : S1568x1.ShapeCasts S1568x1) (hb : S1568x1.Broadcasts S1568x128)
    (p : Fin 1568) (q : Fin 128) :
    broadcastTo S1568x128 (shapeCast S1568x1 xk hc) hb (ix2 p q) = xk (ix2 p (0 : Fin 1)) := by
  rw [shapeCast_self]
  exact broadcastTo_a1_ab_apply xk hb p q

/-- A row of w spread down the rows, at (p, q), is the row at q. -/
theorem row_spread {α : Type} (wk : S1x128.Idx → α) (hb : S1x128.Broadcasts S1568x128) (p : Fin 1568) (q : Fin 128) :
    broadcastTo S1568x128 wk hb (ix2 p q) = wk (ix2 (0 : Fin 1) q) :=
  broadcastTo_1b_ab_apply wk hb p q

/-- The zero the accumulation starts from. -/
theorem zero_spread (p : Fin 1568) (q : Fin 128) :
    broadcast S1568x128 (Scalar.ofBits (F := Ideal) .f32 0x00000000#32) (ix2 p q) = (0 : EReal) :=
  Ideal.ofBits_zero_f32

/-- The first part: four steps from zero. -/
theorem pay1_apply (v1 : Vec Ideal S1568x1 .f32) (v3 : Vec Ideal S1x128 .f32) (v9 : Vec Ideal S1568x1 .f32) (v11 : Vec Ideal S1x128 .f32)
    (v17 : Vec Ideal S1568x1 .f32) (v19 : Vec Ideal S1x128 .f32) (v25 : Vec Ideal S1568x1 .f32) (v27 : Vec Ideal S1x128 .f32)
    (p : Fin 1568) (q : Fin 128) :
    k0_pay1 v1 v3 v9 v11 v17 v19 v25 v27 (ix2 p q)
      = 0 + absDiff (v1 (ix2 p (0 : Fin 1))) (v3 (ix2 (0 : Fin 1) q)) + absDiff (v9 (ix2 p (0 : Fin 1))) (v11 (ix2 (0 : Fin 1) q))
        + absDiff (v17 (ix2 p (0 : Fin 1))) (v19 (ix2 (0 : Fin 1) q)) + absDiff (v25 (ix2 p (0 : Fin 1))) (v27 (ix2 (0 : Fin 1) q)) := by
  unfold k0_pay1
  simp only [step_spread, col_spread, row_spread, zero_spread]

/-- A column spread for the next part's first step. -/
theorem pay2_apply (v33 : Vec Ideal S1568x1 .f32) (p : Fin 1568) (q : Fin 128) :
    k0_pay2 v33 (ix2 p q) = v33 (ix2 p (0 : Fin 1)) := by
  unfold k0_pay2
  simp only [col_spread]

/-- A row spread for the next part's first step. -/
theorem pay3_apply (v35 : Vec Ideal S1x128 .f32) (p : Fin 1568) (q : Fin 128) :
    k0_pay3 v35 (ix2 p q) = v35 (ix2 (0 : Fin 1) q) := by
  unfold k0_pay3
  simp only [row_spread]

/-- A middle part: one step on the operands the previous part spread, then four more. -/
theorem pay4_apply (acc a b : FVec Ideal S1568x128 .f32) (v41 : Vec Ideal S1568x1 .f32) (v43 : Vec Ideal S1x128 .f32)
    (v49 : Vec Ideal S1568x1 .f32) (v51 : Vec Ideal S1x128 .f32) (v57 : Vec Ideal S1568x1 .f32) (v59 : Vec Ideal S1x128 .f32)
    (v65 : Vec Ideal S1568x1 .f32) (v67 : Vec Ideal S1x128 .f32) (p : Fin 1568) (q : Fin 128) :
    k0_pay4 acc a b v41 v43 v49 v51 v57 v59 v65 v67 (ix2 p q)
      = acc (ix2 p q) + absDiff (a (ix2 p q)) (b (ix2 p q))
        + absDiff (v41 (ix2 p (0 : Fin 1))) (v43 (ix2 (0 : Fin 1) q)) + absDiff (v49 (ix2 p (0 : Fin 1))) (v51 (ix2 (0 : Fin 1) q))
        + absDiff (v57 (ix2 p (0 : Fin 1))) (v59 (ix2 (0 : Fin 1) q)) + absDiff (v65 (ix2 p (0 : Fin 1))) (v67 (ix2 (0 : Fin 1) q)) := by
  unfold k0_pay4
  simp only [step_spread, col_spread, row_spread]

/-- The last part: five steps, then the bias row spread down the rows and added. -/
theorem pay37_apply (acc a b : FVec Ideal S1568x128 .f32) (v481 : Vec Ideal S1568x1 .f32) (v483 : Vec Ideal S1x128 .f32)
    (v489 : Vec Ideal S1568x1 .f32) (v491 : Vec Ideal S1x128 .f32) (v497 : Vec Ideal S1568x1 .f32) (v499 : Vec Ideal S1x128 .f32)
    (v505 : Vec Ideal S1568x1 .f32) (v507 : Vec Ideal S1x128 .f32) (v513 : Vec Ideal S128 .f32) (p : Fin 1568) (q : Fin 128) :
    k0_pay37 acc a b v481 v483 v489 v491 v497 v499 v505 v507 v513 (ix2 p q)
      = acc (ix2 p q) + absDiff (a (ix2 p q)) (b (ix2 p q))
        + absDiff (v481 (ix2 p (0 : Fin 1))) (v483 (ix2 (0 : Fin 1) q)) + absDiff (v489 (ix2 p (0 : Fin 1))) (v491 (ix2 (0 : Fin 1) q))
        + absDiff (v497 (ix2 p (0 : Fin 1))) (v499 (ix2 (0 : Fin 1) q)) + absDiff (v505 (ix2 p (0 : Fin 1))) (v507 (ix2 (0 : Fin 1) q))
        + v513 (ix1 q) := by
  unfold k0_pay37
  rw [addf_apply, row_spread, shapeCast_a_1a_apply]
  simp only [step_spread, col_spread, row_spread]

end Cert.KernelIdeal.Dist

end
-- ==== Proof.Block.lean ====
/-
  What the kernel body leaves in its [1568, 128] output block, entry by entry, as a function of its three input blocks
  (1568 rows of x, all of w, all of b): at (p, q) the sixty-four steps |x p k - w k q| added to zero in order, then b q;
  that is, the sum over k plus the bias.

  The thirteen parts' accumulators are three functions under thirteen names (a middle part's accumulator is the second
  part's, the spread operands likewise); each load reads column k of the x block, or row k of w, through a rectangle at
  offset k.
-/
import proofs.«155290_j31138512896692_2_alg».proof.Proof.Gen.KernelIdeal.Frame
import proofs.«155290_j31138512896692_2_alg».proof.Proof.Payload

noncomputable section

namespace Cert.KernelIdeal.Dist

open Idealize.ShloMosaic Idealize.ShloMosaic.ValueIdx Cert.KernelIdeal Cert.KernelIdeal.Gen Cert.Spec

/-! ## The parts' payloads are three functions -/

theorem pay7_eq : k0_pay7 (F := Ideal) = k0_pay4 (F := Ideal) := rfl
theorem pay10_eq : k0_pay10 (F := Ideal) = k0_pay4 (F := Ideal) := rfl
theorem pay13_eq : k0_pay13 (F := Ideal) = k0_pay4 (F := Ideal) := rfl
theorem pay16_eq : k0_pay16 (F := Ideal) = k0_pay4 (F := Ideal) := rfl
theorem pay19_eq : k0_pay19 (F := Ideal) = k0_pay4 (F := Ideal) := rfl
theorem pay22_eq : k0_pay22 (F := Ideal) = k0_pay4 (F := Ideal) := rfl
theorem pay25_eq : k0_pay25 (F := Ideal) = k0_pay4 (F := Ideal) := rfl
theorem pay28_eq : k0_pay28 (F := Ideal) = k0_pay4 (F := Ideal) := rfl
theorem pay31_eq : k0_pay31 (F := Ideal) = k0_pay4 (F := Ideal) := rfl
theorem pay34_eq : k0_pay34 (F := Ideal) = k0_pay4 (F := Ideal) := rfl
theorem pay5_eq : k0_pay5 (F := Ideal) = k0_pay2 (F := Ideal) := rfl
theorem pay8_eq : k0_pay8 (F := Ideal) = k0_pay2 (F := Ideal) := rfl
theorem pay11_eq : k0_pay11 (F := Ideal) = k0_pay2 (F := Ideal) := rfl
theorem pay14_eq : k0_pay14 (F := Ideal) = k0_pay2 (F := Ideal) := rfl
theorem pay17_eq : k0_pay17 (F := Ideal) = k0_pay2 (F := Ideal) := rfl
theorem pay20_eq : k0_pay20 (F := Ideal) = k0_pay2 (F := Ideal) := rfl
theorem pay23_eq : k0_pay23 (F := Ideal) = k0_pay2 (F := Ideal) := rfl
theorem pay26_eq : k0_pay26 (F := Ideal) = k0_pay2 (F := Ideal) := rfl
theorem pay29_eq : k0_pay29 (F := Ideal) = k0_pay2 (F := Ideal) := rfl
theorem pay32_eq : k0_pay32 (F := Ideal) = k0_pay2 (F := Ideal) := rfl
theorem pay35_eq : k0_pay35 (F := Ideal) = k0_pay2 (F := Ideal) := rfl
theorem pay6_eq : k0_pay6 (F := Ideal) = k0_pay3 (F := Ideal) := rfl
theorem pay9_eq : k0_pay9 (F := Ideal) = k0_pay3 (F := Ideal) := rfl
theorem pay12_eq : k0_pay12 (F := Ideal) = k0_pay3 (F := Ideal) := rfl
theorem pay15_eq : k0_pay15 (F := Ideal) = k0_pay3 (F := Ideal) := rfl
theorem pay18_eq : k0_pay18 (F := Ideal) = k0_pay3 (F := Ideal) := rfl
theorem pay21_eq : k0_pay21 (F := Ideal) = k0_pay3 (F := Ideal) := rfl
theorem pay24_eq : k0_pay24 (F := Ideal) = k0_pay3 (F := Ideal) := rfl
theorem pay27_eq : k0_pay27 (F := Ideal) = k0_pay3 (F := Ideal) := rfl
theorem pay30_eq : k0_pay30 (F := Ideal) = k0_pay3 (F := Ideal) := rfl
theorem pay33_eq : k0_pay33 (F := Ideal) = k0_pay3 (F := Ideal) := rfl
theorem pay36_eq : k0_pay36 (F := Ideal) = k0_pay3 (F := Ideal) := rfl

/-! ## The loads -/

theorem zeros2 : (![0, 0] : Fin 2 → Nat) = fun _ => 0 := funext fun a => by fin_cases a <;> rfl
theorem zeros1 : (![0] : Fin 1 → Nat) = fun _ => 0 := funext fun a => by fin_cases a <;> rfl

/-- The load of column k of the x block, at row p. -/
theorem ld_col {α : Type} (x : S1568x64.Idx → α) (k : Nat)
    (inb : ∀ a, (![0, k] : Fin 2 → Nat) a + S1568x1.size a ≤ S1568x64.size a) (p : Fin 1568) :
    (fun y => x ((Rect.unit (s := S1568x64) ![0, k] S1568x1.size inb).idx y)) (ix2 p (0 : Fin 1))
      = x (ix2 p (⟨k, by have h : k + 1 ≤ 64 := inb 1; omega⟩ : Fin 64)) := by
  refine congrArg x (funext fun a => Fin.ext ?_)
  match a with
  | ⟨0, _⟩ => show 0 + 1 * p.val = p.val; omega
  | ⟨1, _⟩ => show k + 1 * 0 = k; omega

/-- The load of row k of w, at lane q. -/
theorem ld_row {α : Type} (w : S64x128.Idx → α) (k : Nat)
    (inb : ∀ a, (![k, 0] : Fin 2 → Nat) a + S1x128.size a ≤ S64x128.size a) (q : Fin 128) :
    (fun y => w ((Rect.unit (s := S64x128) ![k, 0] S1x128.size inb).idx y)) (ix2 (0 : Fin 1) q)
      = w (ix2 (⟨k, by have h : k + 1 ≤ 64 := inb 0; omega⟩ : Fin 64) q) := by
  refine congrArg w (funext fun a => Fin.ext ?_)
  match a with
  | ⟨0, _⟩ => show k + 1 * 0 = k; omega
  | ⟨1, _⟩ => show 0 + 1 * q.val = q.val; omega

/-! ## The block -/

/-- Entry (p, q) of the output block: the sum over k of |x p k - w k q| from zero, plus b q. -/
theorem block_apply (x0 : Vec Ideal S1568x64 .f32) (x1 : Vec Ideal S64x128 .f32) (x2 : Vec Ideal S128 .f32)
    (p : Fin 1568) (q : Fin 128) :
    out0_3 x0 x1 x2 (ix2 p q) = (0 + ∑ k : Fin 64, absDiff (x0 (ix2 p k)) (x1 (ix2 k q))) + x2 (ix1 q) := by
  unfold out0_3
  rw [View.canon_unit_zero zeros2]
  simp only [pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_apply, pay4_apply, pay1_apply, pay2_apply, pay3_apply,
    View.ld_unit_zero (S := S128) zeros1]
  simp only [View.ld, ld_col, ld_row]
  exact congrArg (· + x2 (ix1 q))
    ((chain_eq_sum (fun k : Fin 64 => absDiff (x0 (ix2 p k)) (x1 (ix2 k q)))).trans (zero_add _).symm)

/-- The same at any index of the block. -/
theorem block_entry (x0 : Vec Ideal S1568x64 .f32) (x1 : Vec Ideal S64x128 .f32) (x2 : Vec Ideal S128 .f32)
    (j : S1568x128.Idx) :
    out0_3 x0 x1 x2 j = (0 + ∑ k : Fin 64, absDiff (x0 (ix2 (j 0) k)) (x1 (ix2 k (j 1)))) + x2 (ix1 (j 1)) := by
  exact (congrArg (out0_3 x0 x1 x2) (eq_ix2 j)).trans (block_apply x0 x1 x2 (j 0) (j 1))

end Cert.KernelIdeal.Dist

end
-- ==== Proof.KernelValue.lean ====
/-
  The kernel's result as one function of the three arguments.

  The program recasts the image [12544, 64], runs the body at eight points — point t reads rows t · 1568 … t · 1568 + 1567
  of the recast image, all of w and all of b, and writes rows t · 1568 … of a [12544, 128] array — and recasts that
  array [4, 3136, 128]. A block's entry (p, q) at point t is the distance of row t · 1568 + p from column q plus b q;
  the eight blocks tile the array, which therefore holds the distances row by row; row i · 3136 + j lands at (i, j, ·).
-/
import proofs.«155290_j31138512896692_2_alg».proof.Proof.Gen.KernelIdeal.Frame
import proofs.«155290_j31138512896692_2_alg».proof.Proof.Block
import Idealize.ShloMosaic.Lib.Pipeline.Value
import Idealize.ShloMosaic.Lib.StableHlo.Run

set_option maxRecDepth 16384

noncomputable section

namespace Cert.KernelIdeal.Dist

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (m : (ℓ : Loc nD τ sig) → Buf (Elt Ideal) ℓ) (ρ : Dev nD → PrngReg)

/-! ## The recast image -/

/-- The [12544, 64] array the region reads is the image recast. -/
theorem V_main_v0 (c : Dev nD) :
    V m c main_v0 = shapeCast S12544x64 (m ((c : Thread nD τ).loc main_arg0)) Facts₀.shapeCasts_S4x56x56x64_S12544x64 := by
  show StableHlo.after hostOps0 (fun b => m (c, b)) (Proc.devRef .tc main_v0) = _
  after_results
  rfl

/-- Entry (n, k) of the recast image is channel k of row n. -/
theorem flat_read (x : S4x56x56x64.Idx → EReal) (h : S4x56x56x64.ShapeCasts S12544x64) (i : S12544x64.Idx) (n : Fin 12544)
    (k : Fin 64) (hn : (i 0).val = n.val) (hk : (i 1).val = k.val) : shapeCast S12544x64 x h i = x (pixel n k) := by
  refine shapeCast_apply x h i (pixel n k) ?_
  rw [Shape.rowMajor_val_four, Shape.rowMajor_val_two]
  have := n.isLt
  show ((n.val / 3136 * 56 + n.val / 56 % 56) * 56 + n.val % 56) * 64 + k.val = (i 0).val * 64 + (i 1).val
  omega

/-! ## The blocks -/

/-- The printed index maps over the eight points: the x block and the output block are block t along the rows; w and b are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The w block is all of w at every point. -/
theorem blk1 (c : Dev nD) (t : Fin cfg0.N) : iblk m c 1 t = m ((c : Thread nD τ).loc main_arg1) := by
  obtain ⟨-, -, e0, e1, -⟩ := idx_facts t
  rw [← V_main_arg1 m c]
  funext y
  show V m c main_arg1 (((cfg0.win 1).blk t).view.emb y) = V m c main_arg1 y
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The b block is all of b at every point. -/
theorem blk2 (c : Dev nD) (t : Fin cfg0.N) : iblk m c 2 t = m ((c : Thread nD τ).loc main_arg2) := by
  obtain ⟨-, -, -, -, e0, -⟩ := idx_facts t
  rw [← V_main_arg2 m c]
  funext y
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; omega

/-- Entry (p, k) of the x block at point t is channel k of row t · 1568 + p of the image. -/
theorem blk0 (c : Dev nD) (t : Fin cfg0.N) (y : S1568x64.Idx) (n : Fin 12544) (k : Fin 64)
    (hn : n.val = t.val * 1568 + (y 0).val) (hk : k.val = (y 1).val) :
    iblk m c 0 t y = m ((c : Thread nD τ).loc main_arg0) (pixel n k) := by
  obtain ⟨e0, e1, -⟩ := idx_facts t
  show V m c main_v0 (((cfg0.win 0).blk t).view.emb y) = _
  rw [V_main_v0]
  refine flat_read _ _ _ n k ?_ ?_
  · show win0_0.index t (0 : Fin 2) * 1568 + 1 * (y 0).val = n.val; omega
  · show win0_0.index t (1 : Fin 2) * 64 + 1 * (y 1).val = k.val; omega

/-! ## The array the region writes -/

/-- The [12544, 128] array: entry (n, q) is the distance of row n from column q, plus b q. -/
def rows (c : Dev nD) : S12544x128.Idx → EReal := fun i =>
  rowDist (m ((c : Thread nD τ).loc main_arg0)) (m ((c : Thread nD τ).loc main_arg1)) (m ((c : Thread nD τ).loc main_arg2)) (i 0) (i 1)

/-- An entry of a block against the entry of the array it is written to. -/
theorem entry_eq (X : S4x56x56x64.Idx → EReal) (W : S64x128.Idx → EReal) (B : S128.Idx → EReal)
    (x0 : S1568x64.Idx → EReal) (j : S1568x128.Idx) (n : Fin 12544) (q : Fin 128)
    (h0 : ∀ k : Fin 64, x0 (ix2 (j 0) k) = X (pixel n k)) (hq : q.val = (j 1).val) :
    (0 + ∑ k : Fin 64, absDiff (x0 (ix2 (j 0) k)) (W (ix2 k (j 1)))) + B (ix1 (j 1)) = rowDist X W B n q := by
  have e : (j 1 : Fin 128) = q := Fin.ext hq.symm
  unfold rowDist
  rw [e]
  simp only [h0]

/-- What point t writes back is block t of the array. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3, blk1, blk2]
  obtain ⟨-, -, -, -, -, e0, e1⟩ := idx_facts t
  funext j
  show out0_3 (iblk m c 0 t) (m ((c : Thread nD τ).loc main_arg1)) (m ((c : Thread nD τ).loc main_arg2)) j
    = rows m c (((cfg0.win 3).blk t).view.emb j)
  refine (block_entry (iblk m c 0 t) _ _ j).trans ?_
  refine entry_eq _ _ _ (iblk m c 0 t) j _ _ (fun k => blk0 m c t _ _ k ?_ rfl) ?_
  · show win0_3.index t (0 : Fin 2) * 1568 + 1 * (j 0).val = t.val * 1568 + (j 0).val; omega
  · show win0_3.index t (1 : Fin 2) * 128 + 1 * (j 1).val = (j 1).val; omega

/-- An index of the array is in point t's block iff each coordinate is in the block's range on its axis. -/
theorem mem_blk (t : Fin cfg0.N) (i : S12544x128.Idx) :
    i ∈ ((cfg0.win 3).blk t).view.set ↔ ∀ a : Fin 2, win0_3.index t a * S1568x128.size a ≤ (i a).val ∧ (i a).val < win0_3.index t a * S1568x128.size a + S1568x128.size a := by
  show i ∈ ((View.whole main_v1).slice (win0_3.rect t)).set ↔ _
  rw [View.set_slice_whole, Rect.mem_set_unit]
  exact Iff.rfl

/-- Row n is in the block of point n / 1568: the eight blocks cover the array. -/
theorem cover (i : S12544x128.Idx) :
    ∃ t : Fin cfg0.N, (cfg0.win 3).flush t = true ∧ i ∈ ((cfg0.win 3).blk t).view.set := by
  have hi0 : (i 0).val < 12544 := (i 0).isLt
  have hi1 : (i 1).val < 128 := (i 1).isLt
  have ht : (i 0).val / 1568 < cfg0.N := by show (i 0).val / 1568 < 8; omega
  obtain ⟨-, -, -, -, -, e0, e1⟩ := idx_facts ⟨(i 0).val / 1568, ht⟩
  refine ⟨⟨(i 0).val / 1568, ht⟩, flush0_3 _, ?_⟩
  rw [mem_blk]
  intro a
  match a with
  | ⟨0, _⟩ =>
    show win0_3.index ⟨(i 0).val / 1568, ht⟩ (0 : Fin 2) * 1568 ≤ (i 0).val ∧ (i 0).val < win0_3.index ⟨(i 0).val / 1568, ht⟩ (0 : Fin 2) * 1568 + 1568
    rw [e0]; show (i 0).val / 1568 * 1568 ≤ (i 0).val ∧ (i 0).val < (i 0).val / 1568 * 1568 + 1568; omega
  | ⟨1, _⟩ =>
    show win0_3.index ⟨(i 0).val / 1568, ht⟩ (1 : Fin 2) * 128 ≤ (i 1).val ∧ (i 1).val < win0_3.index ⟨(i 0).val / 1568, ht⟩ (1 : Fin 2) * 128 + 128
    omega

/-- The array after the region holds the distances, row by row. -/
theorem final (c : Dev nD) : (dats m 0 c).arrAt 3 cfg0.N = rows m c :=
  (dats m 0 c).arrAt_eq_of_cover 3 (rows m c) (fun t _ => flushed_eq m c t) cover

/-! ## The recast result -/

/-- The array recast [4, 3136, 128] is the result: row i · 3136 + j lands at (i, j, ·). -/
theorem recast_rows (c : Dev nD) (h : S12544x128.ShapeCasts S4x3136x128) :
    shapeCast S4x3136x128 (rows m c) h
      = result (m ((c : Thread nD τ).loc main_arg0)) (m ((c : Thread nD τ).loc main_arg1)) (m ((c : Thread nD τ).loc main_arg2)) := by
  funext i
  obtain ⟨i0, i1, i2, rfl⟩ : ∃ (i0 : Fin 4) (i1 : Fin 3136) (i2 : Fin 128), i = ix3 i0 i1 i2 := ⟨i 0, i 1, i 2, eq_ix3 i⟩
  refine (shapeCast_apply (rows m c) h (ix3 i0 i1 i2) (ix2 (row i0 i1) i2) ?_).trans rfl
  rw [Shape.rowMajor_val_three, Shape.rowMajor_val_two]
  rfl

/-- The program's result buffer after the run. -/
theorem tail_eq (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  rw [(Pipeline.withArrays_arr spec0 launch0.win.arr_inj c _ _ 3).trans (final m c)]
  exact recast_rows m c _

/-! ## The run -/

/-- Every weakly fair execution of the kernel's program ends with the result array at the distances plus the bias, and the
    three arguments as launched. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Dist

end
-- ==== Proof.RefValue.lean ====
/-
  The reference, entry by entry: it recasts the image [4, 3136, 64], spreads it and w over [4, 3136, 64, 128],
  subtracts, takes absolute values, sums over the channel axis from zero and adds the bias row. At (i, j, q) that is
  (0 + ∑ k, |x (i, j) k - w k q|) + b q, where pixel (i, j) of the recast image is row i · 3136 + j of the flattened one.
-/
import proofs.«155290_j31138512896692_2_alg».proof.Proof.Gen.ReferenceIdeal.Read
import proofs.«155290_j31138512896692_2_alg».proof.Proof.Spec
import Idealize.ShloMosaic.PureOps.Ideal.Laws

noncomputable section

namespace Cert.ReferenceIdeal.Dist

open Idealize.ShloMosaic Idealize.ShloMosaic.ValueIdx Cert.ReferenceIdeal Cert.ReferenceIdeal.Read Cert.Spec

/-- Channel k of pixel (i, j) of the recast image is channel k of row i · 3136 + j. -/
theorem image_index (i0 : Fin 4) (i1 : Fin 3136) (i2 : Fin 128) (k : Fin 64) :
    idx_main_v0 (idx_main_v1 (idx_main_v3 (idx_main_v7 (ix3 i0 i1 i2) k))) = pixel (row i0 i1) k := by
  have h0 := i0.isLt
  have h1 := i1.isLt
  have hk := k.isLt
  funext a
  apply Fin.ext
  match a with
  | ⟨0, _⟩ => show ((i0.val * 3136 + i1.val) * 64 + k.val) / 200704 = (i0.val * 3136 + i1.val) / 3136; omega
  | ⟨1, _⟩ => show ((i0.val * 3136 + i1.val) * 64 + k.val) / 3584 % 56 = (i0.val * 3136 + i1.val) / 56 % 56; omega
  | ⟨2, _⟩ => show ((i0.val * 3136 + i1.val) * 64 + k.val) / 64 % 56 = (i0.val * 3136 + i1.val) % 56; omega
  | ⟨3, _⟩ => show ((i0.val * 3136 + i1.val) * 64 + k.val) % 64 = k.val; omega

/-- The entry of w the reference reads at (i, j, k, q) is (k, q). -/
theorem weight_index (i0 : Fin 4) (i1 : Fin 3136) (i2 : Fin 128) (k : Fin 64) :
    idx_main_v2 (idx_main_v4 (idx_main_v7 (ix3 i0 i1 i2) k)) = ix2 k i2 := by
  funext a
  apply Fin.ext
  match a with
  | ⟨0, _⟩ => rfl
  | ⟨1, _⟩ => rfl

/-- The entry of b the reference reads at (i, j, q) is q. -/
theorem bias_index (i0 : Fin 4) (i1 : Fin 3136) (i2 : Fin 128) :
    idx_main_v8 (idx_main_v9 (ix3 i0 i1 i2)) = ix1 i2 := by
  funext a
  apply Fin.ext
  match a with
  | ⟨0, _⟩ => rfl

/-- The reference's result is the distances plus the bias. -/
theorem reference_eq (x : S4x56x56x64.Idx → EReal) (w : S64x128.Idx → EReal) (b : S128.Idx → EReal) :
    val_main_v10 (F := Ideal) x w b = result x w b := by
  funext i
  obtain ⟨i0, i1, i2, rfl⟩ : ∃ (i0 : Fin 4) (i1 : Fin 3136) (i2 : Fin 128), i = ix3 i0 i1 i2 := ⟨i 0, i 1, i 2, eq_ix3 i⟩
  rw [val_main_v10_apply, val_main_v7_apply, val_main_v9_apply, val_main_v8_apply, bias_index]
  simp only [val_main_v6_apply, val_main_v5_apply, val_main_v3_apply, val_main_v1_apply, val_main_v0_apply,
    val_main_v4_apply, val_main_v2_apply, val_main_cst_apply, image_index, weight_index,
    Ideal.ofBits_def, Ideal.ofBits_zero_f32]
  rfl

end Cert.ReferenceIdeal.Dist

end
-- ==== Proof.lean ====
/-
  The kernel computes, for the image x [4, 56, 56, 64] read as 12544 rows of 64 channels, the weights w [64, 128] and the
  bias b [128], the array out[n, q] = (∑ k, |x n k - w k q|) + b q, recast [4, 3136, 128]: it accumulates the sixty-four
  terms one at a time from zero, 1568 rows per grid point. The reference spreads x and w over [4, 3136, 64, 128],
  subtracts, takes absolute values, sums over the channel axis from zero and adds the bias. On the extended reals
  both are Cert.Spec.result of the three arguments: a sum taken term by term is the sum (addition is commutative and
  associative there, infinities included), the two recasts of the image name the same pixels, and |·| is max (·) (-·)
  on both sides. No finiteness is used.

  The three frames are the generated ones (the reference's is its run with the result dropped); the idealization
  rewrote nothing, so it preserves the program trivially.
-/
import proofs.«155290_j31138512896692_2_alg».proof.Defs
import proofs.«155290_j31138512896692_2_alg».proof.Proof.Gen.Kernel
import proofs.«155290_j31138512896692_2_alg».proof.Proof.Gen.Kernel.Frame
import proofs.«155290_j31138512896692_2_alg».proof.Proof.Gen.KernelIdeal
import proofs.«155290_j31138512896692_2_alg».proof.Proof.Gen.KernelIdeal.Frame
import proofs.«155290_j31138512896692_2_alg».proof.Proof.Gen.ReferenceIdeal
import proofs.«155290_j31138512896692_2_alg».proof.Proof.Gen.Pre_finite_inputs
import proofs.«155290_j31138512896692_2_alg».proof.Proof.Gen.ReferenceIdeal.Run
import proofs.«155290_j31138512896692_2_alg».proof.Proof.Gen.ReferenceIdeal.Read
import proofs.«155290_j31138512896692_2_alg».proof.Proof.KernelValue
import proofs.«155290_j31138512896692_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the distances plus the bias of arguments that agree. -/
theorem algebraic : Cert.algebraic_KernelIdeal_ReferenceIdeal := by
  intro m ρ m' ρ' _ hagree
  refine ⟨fun c => Cert.Spec.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Dist.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
